-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x4096 : Shape := ⟨3, ![32, 64, 4096]⟩
abbrev S_ : Shape := ⟨0, ![]⟩

class Facts : Prop where
  bcast_S_S32x64x4096 : S_.BroadcastsInDim S32x64x4096 (![] : Fin 0 → Fin S32x64x4096.rank)
  reducesTo_S32x64x4096_S_d0_1_2 : S32x64x4096.ReducesTo [0, 1, 2] S_
  h_S_ : 0 < S_.numel

variable [Facts]

def fn {F : FTy → Type} [FloatOps F] (main_arg0 : FVec F S32x64x4096 .f32) : IVec S_ 1 :=
  let main_v0 : FVec F S32x64x4096 .f32 := Host.absf main_arg0
  let main_cst : FVec F S_ .f32 := constant S_ .f32 0x7F800000#32
  let main_v1 : FVec F S32x64x4096 .f32 := broadcastInDim S32x64x4096 ![] bcast_S_S32x64x4096 main_cst
  let main_v2 : IVec S32x64x4096 1 := cmpf .olt main_v0 main_v1
  let main_c : IVec S_ 1 := constantI S_ 1 1#1
  let main_v3 : IVec S_ 1 := (fun x v => Host.reduce IntOp.andi x v reducesTo_S32x64x4096_S_d0_1_2 h_S_) main_v2 main_c
  main_v3
-- ==== Kernel.lean ====
abbrev S32x64x4096 : Shape := ⟨3, ![32, 64, 4096]⟩
abbrev S2048x4096 : Shape := ⟨2, ![2048, 4096]⟩
abbrev S2048x24576 : Shape := ⟨2, ![2048, 24576]⟩
abbrev S128x4096 : Shape := ⟨2, ![128, 4096]⟩
abbrev S128x24576 : Shape := ⟨2, ![128, 24576]⟩
abbrev S32x64x6x4096 : Shape := ⟨4, ![32, 64, 6, 4096]⟩

abbrev nBuf : Space → Nat
  | .hbm => 4
  | .vmem => 4
  | .smem => 0
  | _ => 0

abbrev bufTy : (tb : Table) → Fin (tcTables nBuf tb) → BufTy
  | .hbm, ⟨0, _⟩ => ⟨S32x64x4096, .f32⟩
  | .hbm, ⟨1, _⟩ => ⟨S2048x4096, .f32⟩
  | .hbm, ⟨2, _⟩ => ⟨S2048x24576, .f32⟩
  | .hbm, ⟨3, _⟩ => ⟨S32x64x6x4096, .f32⟩
  | .local _ .vmem, ⟨0, _⟩ => ⟨S128x4096, .f32⟩
  | .local _ .vmem, ⟨1, _⟩ => ⟨S128x4096, .f32⟩
  | .local _ .vmem, ⟨2, _⟩ => ⟨S128x24576, .f32⟩
  | .local _ .vmem, ⟨3, _⟩ => ⟨S128x24576, .f32⟩
  | _, _ => ⟨S32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x24576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x64x4096_S2048x4096 : S32x64x4096.ShapeCasts S2048x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x24576_S128x4096_0_0 : ∀ a, (![0, 0] : Fin 2 → Nat) a + S128x4096.size a ≤ S128x24576.size a
  inb_S128x24576_S128x4096_0_4096 : ∀ a, (![0, 4096] : Fin 2 → Nat) a + S128x4096.size a ≤ S128x24576.size a
  inb_S128x24576_S128x4096_0_8192 : ∀ a, (![0, 8192] : Fin 2 → Nat) a + S128x4096.size a ≤ S128x24576.size a
  inb_S128x24576_S128x4096_0_12288 : ∀ a, (![0, 12288] : Fin 2 → Nat) a + S128x4096.size a ≤ S128x24576.size a
  inb_S128x24576_S128x4096_0_16384 : ∀ a, (![0, 16384] : Fin 2 → Nat) a + S128x4096.size a ≤ S128x24576.size a
  inb_S128x24576_S128x4096_0_20480 : ∀ a, (![0, 20480] : Fin 2 → Nat) a + S128x4096.size a ≤ S128x24576.size a
  shapeCasts_S2048x24576_S32x64x6x4096 : S2048x24576.ShapeCasts S32x64x6x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .f32 = 32 ∨ (Rect.block (s := S2048x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x24576.size a ≤ S2048x24576.size a
  hwx0_1 : ∀ i : grid0.Coords, EltTy.bits .f32 = 32 ∨ (Rect.block (s := S2048x24576) S128x24576.size (cc0_transform_1 i) (hinb0_1 i)).WholeWords (EltTy.packing .f32)

variable [Facts₀]

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x24576.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x4096 : Shape := ⟨3, ![32, 64, 4096]⟩
abbrev S_ : Shape := ⟨0, ![]⟩
abbrev S32x64x1x4096 : Shape := ⟨4, ![32, 64, 1, 4096]⟩
abbrev S32x64x6x4096 : Shape := ⟨4, ![32, 64, 6, 4096]⟩

abbrev nBuf : Space → Nat
  | .hbm => 57
  | .vmem => 0
  | .smem => 0
  | _ => 0

abbrev bufTy : (tb : Table) → Fin (tcTables nBuf tb) → BufTy
  | .hbm, ⟨0, _⟩ => ⟨S32x64x4096, .f32⟩
  | .hbm, ⟨1, _⟩ => ⟨S32x64x4096, .f32⟩
  | .hbm, ⟨2, _⟩ => ⟨S_, .f32⟩
  | .hbm, ⟨3, _⟩ => ⟨S32x64x4096, .f32⟩
  | .hbm, ⟨4, _⟩ => ⟨S32x64x4096, .f32⟩
  | .hbm, ⟨5, _⟩ => ⟨S32x64x4096, .f32⟩
  | .hbm, ⟨6, _⟩ => ⟨S32x64x4096, .f32⟩
  | .hbm, ⟨7, _⟩ => ⟨S_, .f32⟩
  | .hbm, ⟨8, _⟩ => ⟨S32x64x4096, .f32⟩
  | .hbm, ⟨9, _⟩ => ⟨S32x64x4096, .f32⟩
  | .hbm, ⟨10, _⟩ => ⟨S32x64x4096, .f32⟩
  | .hbm, ⟨11, _⟩ => ⟨S_, .f32⟩
  | .hbm, ⟨12, _⟩ => ⟨S32x64x4096, .f32⟩
  | .hbm, ⟨13, _⟩ => ⟨S32x64x4096, .f32⟩
  | .hbm, ⟨14, _⟩ => ⟨S_, .f32⟩
  | .hbm, ⟨15, _⟩ => ⟨S32x64x4096, .f32⟩
  | .hbm, ⟨16, _⟩ => ⟨S32x64x4096, .f32⟩
  | .hbm, ⟨17, _⟩ => ⟨S32x64x4096, .f32⟩
  | .hbm, ⟨18, _⟩ => ⟨S_, .f32⟩
  | .hbm, ⟨19, _⟩ => ⟨S32x64x4096, .f32⟩
  | .hbm, ⟨20, _⟩ => ⟨S32x64x4096, .f32⟩
  | .hbm, ⟨21, _⟩ => ⟨S32x64x4096, .f32⟩
  | .hbm, ⟨22, _⟩ => ⟨S_, .f32⟩
  | .hbm, ⟨23, _⟩ => ⟨S32x64x4096, .f32⟩
  | .hbm, ⟨24, _⟩ => ⟨S32x64x4096, .f32⟩
  | .hbm, ⟨25, _⟩ => ⟨S32x64x4096, .f32⟩
  | .hbm, ⟨26, _⟩ => ⟨S_, .f32⟩
  | .hbm, ⟨27, _⟩ => ⟨S32x64x4096, .f32⟩
  | .hbm, ⟨28, _⟩ => ⟨S32x64x4096, .f32⟩
  | .hbm, ⟨29, _⟩ => ⟨S32x64x4096, .f32⟩
  | .hbm, ⟨30, _⟩ => ⟨S_, .f32⟩
  | .hbm, ⟨31, _⟩ => ⟨S32x64x4096, .f32⟩
  | .hbm, ⟨32, _⟩ => ⟨S32x64x4096, .f32⟩
  | .hbm, ⟨33, _⟩ => ⟨S32x64x4096, .f32⟩
  | .hbm, ⟨34, _⟩ => ⟨S_, .f32⟩
  | .hbm, ⟨35, _⟩ => ⟨S32x64x4096, .f32⟩
  | .hbm, ⟨36, _⟩ => ⟨S32x64x4096, .f32⟩
  | .hbm, ⟨37, _⟩ => ⟨S32x64x4096, .f32⟩
  | .hbm, ⟨38, _⟩ => ⟨S_, .f32⟩
  | .hbm, ⟨39, _⟩ => ⟨S32x64x4096, .f32⟩
  | .hbm, ⟨40, _⟩ => ⟨S32x64x4096, .f32⟩
  | .hbm, ⟨41, _⟩ => ⟨S32x64x4096, .f32⟩
  | .hbm, ⟨42, _⟩ => ⟨S_, .f32⟩
  | .hbm, ⟨43, _⟩ => ⟨S32x64x4096, .f32⟩
  | .hbm, ⟨44, _⟩ => ⟨S32x64x4096, .f32⟩
  | .hbm, ⟨45, _⟩ => ⟨S32x64x4096, .f32⟩
  | .hbm, ⟨46, _⟩ => ⟨S_, .f32⟩
  | .hbm, ⟨47, _⟩ => ⟨S32x64x4096, .f32⟩
  | .hbm, ⟨48, _⟩ => ⟨S32x64x4096, .f32⟩
  | .hbm, ⟨49, _⟩ => ⟨S32x64x4096, .f32⟩
  | .hbm, ⟨50, _⟩ => ⟨S32x64x1x4096, .f32⟩
  | .hbm, ⟨51, _⟩ => ⟨S32x64x1x4096, .f32⟩
  | .hbm, ⟨52, _⟩ => ⟨S32x64x1x4096, .f32⟩
  | .hbm, ⟨53, _⟩ => ⟨S32x64x1x4096, .f32⟩
  | .hbm, ⟨54, _⟩ => ⟨S32x64x1x4096, .f32⟩
  | .hbm, ⟨55, _⟩ => ⟨S32x64x1x4096, .f32⟩
  | .hbm, ⟨56, _⟩ => ⟨S32x64x6x4096, .f32⟩
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S_S32x64x4096 : S_.BroadcastsInDim S32x64x4096 (![] : Fin 0 → Fin S32x64x4096.rank)
  bcast_S32x64x4096_S32x64x1x4096_0_1_3 : S32x64x4096.BroadcastsInDim S32x64x1x4096 (![0, 1, 3] : Fin 3 → Fin S32x64x1x4096.rank)
  concatenates_S32x64x1x4096_S32x64x1x4096_S32x64x1x4096_S32x64x1x4096_S32x64x1x4096_S32x64x1x4096_S32x64x6x4096_d2 : Shape.Concatenates [S32x64x1x4096, S32x64x1x4096, S32x64x1x4096, S32x64x1x4096, S32x64x1x4096, S32x64x1x4096] S32x64x6x4096 2

variable [Facts₀]

class Facts : Prop extends Facts₀ where

variable [Facts]
-- ==== Proof.Hermite.lean ====
/-
  The functions both programs compute, as functions of one extended real.

  With `u = tanh x · s` (`s` the float nearest √13) and the envelope `g u = exp (-(u · u) / 2)`, the six outputs at one
  element `x` are the first six terms of a three-term recurrence
      ψ₀ = c · g,   ψ₁ = c₁ · u · g,   ψₖ = aₖ · u · ψₖ₋₁ - bₖ · ψₖ₋₂   (k = 2 … 5),
  with float constants `c, c₁, aₖ, bₖ` that are the same words in the two programs, and are therefore never evaluated
  here. The one place where the two texts differ is the envelope: one program halves by multiplying with the word of
  `0.5` after subtracting from the word of `0`, the other negates and divides by the word of `2`. On the extended
  reals `0 - u = -u`, and dividing by the real `2` is multiplying by the real `1/2` (also at the infinities), so the two
  envelopes are one function: `env_halved`.
-/
import Idealize.ShloMosaic.PureOps.Ideal
import Idealize.ShloMosaic.PureOps.Ideal.Laws
import Idealize.ShloMosaic.Lib.ValueIdx

noncomputable section

namespace Cert.Hermite

open Idealize.ShloMosaic Idealize.ShloMosaic.ValueIdx

/-- The extended real a 32-bit float word denotes. -/
abbrev lit (w : BitVec 32) : EReal := Ideal.ofBits .f32 w

/-- The scaled argument `u = tanh x · s`. -/
def arg (x : EReal) : EReal := Ideal.tanh x * lit 0x4066C15A#32

/-- The Gaussian envelope `exp (-(u · u) / 2)`, written with a negation and a quotient by the word of `2`. -/
def env (u : EReal) : EReal := Ideal.exp (Ideal.div (-u * u) (lit 0x40000000#32))

def psi0 (u : EReal) : EReal := lit 0x3F4049C4#32 * env u
def psi1 (u : EReal) : EReal := lit 0x3F87F7DF#32 * u * env u
def psi2 (u : EReal) : EReal := lit 0x3F800000#32 * u * psi1 u - lit 0x3F3504F3#32 * psi0 u
def psi3 (u : EReal) : EReal := lit 0x3F5105EC#32 * u * psi2 u - lit 0x3F5105EC#32 * psi1 u
def psi4 (u : EReal) : EReal := lit 0x3F3504F3#32 * u * psi3 u - lit 0x3F5DB3D7#32 * psi2 u
def psi5 (u : EReal) : EReal := lit 0x3F21E89B#32 * u * psi4 u - lit 0x3F64F92E#32 * psi3 u

/-- Output `k` (of six) at an element `x` of the input. -/
def herm : Fin 6 → EReal → EReal
  | ⟨0, _⟩, x => psi0 (arg x)
  | ⟨1, _⟩, x => psi1 (arg x)
  | ⟨2, _⟩, x => psi2 (arg x)
  | ⟨3, _⟩, x => psi3 (arg x)
  | ⟨4, _⟩, x => psi4 (arg x)
  | ⟨5, _⟩, x => psi5 (arg x)

/-- The word of `+0.0` denotes `0`. -/
theorem lit_zero : lit 0x00000000#32 = 0 := Ideal.ofBits_zero_f32

/-- The word of `2.0` denotes the real `2`. -/
theorem lit_two : lit 0x40000000#32 = ((2 : ℝ) : EReal) := by
  simp [Ideal.ofBits, Ideal.ieee, -EReal.coe_mul]; norm_num

/-- The word of `0.5` denotes the real `1/2`. -/
theorem lit_half : lit 0x3F000000#32 = ((1 / 2 : ℝ) : EReal) := by
  simp [Ideal.ofBits, Ideal.ieee, -EReal.coe_mul]; norm_num

/-- The envelope written the other way — subtract from the word of zero, multiply, multiply by the word of `0.5` — is
    the same function: `0 - u = -u`, and a quotient by the real `2` is the product with the real `1/2` on every
    extended real. -/
theorem env_halved (u : EReal) :
    Ideal.exp ((lit 0x00000000#32 - u) * u * lit 0x3F000000#32) = env u := by
  unfold env
  rw [lit_zero, zero_sub, lit_half, lit_two, Ideal.div_coe (by norm_num : (2 : ℝ) ≠ 0)]

/-! ## The result as one function of the input array -/

/-- The result: entry `(b, n, k, c)` is term `k` of the input's element `(b, n, c)`. -/
def G (A : (⟨3, ![32, 64, 4096]⟩ : Shape).Idx → EReal) : (⟨4, ![32, 64, 6, 4096]⟩ : Shape).Idx → EReal :=
  fun j => herm (j 2) (A (ix3 (j 0) (j 1) (j 3)))

/-- The six terms laid side by side along the columns of a matrix of `n` rows: row `r`, column `k · 4096 + c` holds term
    `k` of the element `(r, c)`. -/
def wide {n : Nat} (X : (⟨2, ![n, 4096]⟩ : Shape).Idx → EReal) : (⟨2, ![n, 24576]⟩ : Shape).Idx → EReal :=
  fun y => herm ⟨(y 1).val / 4096, by have := idx2_lt1 y; omega⟩
    (X (ix2 (y 0) ⟨(y 1).val % 4096, Nat.mod_lt _ (by norm_num)⟩))

/-- `wide` at a position given by its row, its term and its column within the term. -/
theorem wide_apply {n : Nat} (X : (⟨2, ![n, 4096]⟩ : Shape).Idx → EReal) (y : (⟨2, ![n, 24576]⟩ : Shape).Idx)
    (k : Fin 6) (r : Fin n) (c : Fin 4096) (h0 : (y 0).val = r.val) (h1 : (y 1).val = k.val * 4096 + c.val) :
    wide X y = herm k (X (ix2 r c)) := by
  have hc := c.isLt
  have e1 : (y 1).val / 4096 = k.val := by omega
  have e2 : (y 1).val % 4096 = c.val := by omega
  unfold wide
  congr 1
  · exact Fin.ext e1
  · congr 1
    funext a
    match a with
    | ⟨0, _⟩ => exact Fin.ext h0
    | ⟨1, _⟩ => exact Fin.ext e2

end Cert.Hermite

end
-- ==== Proof.KernelPoint.lean ====
/-
  The kernel body's stored values, read at one element of the block.

  The body loads a block `x0` of 128 × 4096 elements and stores six blocks of that shape. Every operation of the body is
  pointwise, so each stored value at position `y` is a function of `x0 y` alone: the scaled argument `arg`, the
  envelope (in the body's spelling, which `Hermite.env_halved` identifies with `env`), and the terms `psi0 … psi5` of the
  recurrence, term by term in the order the body computes them.
-/
import proofs.«133413_j41721312314117_2_alg».proof.Proof.Gen.KernelIdeal.Skeleton
import proofs.«133413_j41721312314117_2_alg».proof.Proof.Hermite
import Idealize.ShloMosaic.Lib.Pipeline.Value

noncomputable section

namespace Cert.KernelIdeal.Point

open Cert.KernelIdeal Cert.KernelIdeal.Gen Idealize.ShloMosaic Cert.Hermite

variable (x0 : Vec Ideal S128x4096 .f32) (y : S128x4096.Idx)

/-- The scaled argument: the cast to the block's own shape is the identity, then `tanh` and the product with `s`. -/
theorem at_arg : k0_pay3 (F := Ideal) x0 y = arg (x0 y) := by
  unfold k0_pay3
  rw [shapeCast_self]
  rfl

/-- The envelope, in the body's spelling `exp ((0 - u) · u · 0.5)`. -/
theorem at_env : k0_pay4 (F := Ideal) x0 y = env (arg (x0 y)) := by
  unfold k0_pay4
  show Ideal.exp ((lit 0x00000000#32 - k0_pay3 (F := Ideal) x0 y) * k0_pay3 (F := Ideal) x0 y * lit 0x3F000000#32) = _
  rw [at_arg, env_halved]

theorem at_psi0 : k0_pay5 (F := Ideal) x0 y = psi0 (arg (x0 y)) := by
  unfold k0_pay5
  show lit 0x3F4049C4#32 * k0_pay4 (F := Ideal) x0 y = _
  rw [at_env]; rfl

theorem at_psi1 : k0_pay6 (F := Ideal) x0 y = psi1 (arg (x0 y)) := by
  unfold k0_pay6
  show lit 0x3F87F7DF#32 * k0_pay3 (F := Ideal) x0 y * k0_pay4 (F := Ideal) x0 y = _
  rw [at_arg, at_env]; rfl

theorem at_psi2 : k0_pay7 (F := Ideal) x0 y = psi2 (arg (x0 y)) := by
  unfold k0_pay7
  show lit 0x3F800000#32 * k0_pay3 (F := Ideal) x0 y * k0_pay6 (F := Ideal) x0 y
      - lit 0x3F3504F3#32 * k0_pay5 (F := Ideal) x0 y = _
  rw [at_arg, at_psi1, at_psi0]; rfl

theorem at_psi3 : k0_pay8 (F := Ideal) x0 y = psi3 (arg (x0 y)) := by
  unfold k0_pay8
  show lit 0x3F5105EC#32 * k0_pay3 (F := Ideal) x0 y * k0_pay7 (F := Ideal) x0 y
      - lit 0x3F5105EC#32 * k0_pay6 (F := Ideal) x0 y = _
  rw [at_arg, at_psi2, at_psi1]; rfl

/-- The first product of the fifth term, `a₄ · u · ψ₃`, which the body computes before the subtraction. -/
theorem at_psi4_lead : k0_pay9 (F := Ideal) x0 y = lit 0x3F3504F3#32 * arg (x0 y) * psi3 (arg (x0 y)) := by
  unfold k0_pay9
  show lit 0x3F3504F3#32 * k0_pay3 (F := Ideal) x0 y * k0_pay8 (F := Ideal) x0 y = _
  rw [at_arg, at_psi3]

theorem at_psi4 : k0_pay1 (F := Ideal) (k0_pay7 x0) (k0_pay9 x0) y = psi4 (arg (x0 y)) := by
  unfold k0_pay1
  show k0_pay9 (F := Ideal) x0 y - lit 0x3F5DB3D7#32 * k0_pay7 (F := Ideal) x0 y = _
  rw [at_psi4_lead, at_psi2]; rfl

theorem at_psi5 : k0_pay2 (F := Ideal) (k0_pay3 x0) (k0_pay7 x0) (k0_pay8 x0) (k0_pay9 x0) y = psi5 (arg (x0 y)) := by
  unfold k0_pay2
  show lit 0x3F21E89B#32 * k0_pay3 (F := Ideal) x0 y * k0_pay1 (F := Ideal) (k0_pay7 x0) (k0_pay9 x0) y
      - lit 0x3F64F92E#32 * k0_pay8 (F := Ideal) x0 y = _
  rw [at_arg, at_psi4, at_psi3]; rfl

end Cert.KernelIdeal.Point

end
-- ==== Proof.KernelBlock.lean ====
/-
  What the kernel body leaves in the output's staging buffer.

  The body stores its six values through six rectangles of 128 × 4096 that lie side by side along the columns of the
  128 × 24576 buffer, rectangle `k` starting at column `k · 4096` and holding term `k` of the loaded block. Each stored
  value is therefore the block of ONE function of the buffer's index — `Hermite.wide` of the loaded block — and since the
  rectangles tile the buffer, the buffer ends holding that function.
-/
import proofs.«133413_j41721312314117_2_alg».proof.Proof.Gen.KernelIdeal.Frame
import proofs.«133413_j41721312314117_2_alg».proof.Proof.KernelPoint
import Idealize.ShloMosaic.Lib.Pipeline.Value

noncomputable section

namespace Cert.KernelIdeal.Point

open Cert.KernelIdeal Cert.KernelIdeal.Gen Idealize.ShloMosaic Idealize.ShloMosaic.ValueIdx Cert.Hermite

theorem zero_offsets : (![0, 0] : Fin 2 → Nat) = fun _ => 0 := funext fun a => by fin_cases a <;> rfl

/-- A value that is term `k` of the loaded block, stored at column offset `k · 4096`, agrees with `wide` of the block at
    every position of its rectangle: position `x` of the rectangle is `(x 0, k · 4096 + x 1)` of the buffer. -/
theorem stored_term (x0 : S128x4096.Idx → EReal) (k : Fin 6) (off : Nat) (hoff : off = k.val * 4096)
    (inb : ∀ a, (![0, off] : Fin 2 → Nat) a + S128x4096.size a ≤ S128x24576.size a)
    (w : S128x4096.Idx → EReal) (hw : ∀ y, w y = herm k (x0 y))
    (x : (Rect.unit (s := S128x24576) ![0, off] S128x4096.size inb).shape.Idx) :
    w x = wide x0 ((Rect.unit (s := S128x24576) ![0, off] S128x4096.size inb).emb x) := by
  rw [hw, wide_apply x0 _ k (x 0) (x 1) (by show 0 + 1 * (x 0).val = (x 0).val; omega)
    (by show off + 1 * (x 1).val = k.val * 4096 + (x 1).val; omega)]
  exact congrArg (fun z => herm k (x0 z)) (eq_ix2 x)

/-- The output's staging buffer after the body: the six terms of the loaded block side by side. -/
theorem block_eq (x0 : Vec Ideal S128x4096 .f32) : out0_1 (F := Ideal) x0 = wide x0 := by
  funext y
  unfold out0_1
  simp only [View.ld_unit_zero (S := S128x4096) zero_offsets]
  refine View.canon_apply_of_pieces (Val := Elt Ideal) (S := S128x24576) (e := .f32) (wide x0) _ ?_ y (cover0_1 _ _ _ _ _ _ y)
  intro p hp
  simp only [List.mem_cons, List.mem_nil_iff, or_false] at hp
  rcases hp with rfl | rfl | rfl | rfl | rfl | rfl
  · exact fun x => stored_term x0 5 20480 rfl Facts₀.inb_S128x24576_S128x4096_0_20480 _ (fun y => at_psi5 x0 y) x
  · exact fun x => stored_term x0 4 16384 rfl Facts₀.inb_S128x24576_S128x4096_0_16384 _ (fun y => at_psi4 x0 y) x
  · exact fun x => stored_term x0 3 12288 rfl Facts₀.inb_S128x24576_S128x4096_0_12288 _ (fun y => at_psi3 x0 y) x
  · exact fun x => stored_term x0 2 8192 rfl Facts₀.inb_S128x24576_S128x4096_0_8192 _ (fun y => at_psi2 x0 y) x
  · exact fun x => stored_term x0 1 4096 rfl Facts₀.inb_S128x24576_S128x4096_0_4096 _ (fun y => at_psi1 x0 y) x
  · exact fun x => stored_term x0 0 0 rfl Facts₀.inb_S128x24576_S128x4096_0_0 _ (fun y => at_psi0 x0 y) x

end Cert.KernelIdeal.Point

end
-- ==== Proof.KernelArray.lean ====
/-
  The kernel's output array after the run.

  Grid point `t` (of 16) reads rows `128 t … 128 t + 127` of the flattened input `[2048, 4096]` and writes back the same
  rows of the output `[2048, 24576]`, all columns. What it writes back is `Hermite.wide` of the rows it read, and `wide`
  works row by row, so this is block `t` of `wide` of the whole flattened input. The sixteen blocks tile the output's rows
  (row `r` belongs to point `r / 128`), so the output array ends holding `wide` of the flattened input.
-/
import proofs.«133413_j41721312314117_2_alg».proof.Proof.KernelBlock

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Hermite Cert.KernelIdeal.Point
open Idealize.ShloMosaic.Pipeline (Dat)

/-- `wide` of a block of rows is the block of `wide`: if `xb` holds rows `128 q …` of `X` (position `z` of the block being
    `e0 z` of the matrix), then `wide xb` at `j` is `wide X` at the position `i` in the same row block, same column. -/
theorem wide_of_rows (X : S2048x4096.Idx → EReal) (xb : S128x4096.Idx → EReal) (e0 : S128x4096.Idx → S2048x4096.Idx)
    (hxb : ∀ z, xb z = X (e0 z)) (q : Nat)
    (he0 : ∀ z, (e0 z 0).val = q * 128 + 1 * (z 0).val ∧ (e0 z 1).val = 0 * 4096 + 1 * (z 1).val)
    (j : S128x24576.Idx) (i : S2048x24576.Idx) (hi0 : (i 0).val = q * 128 + 1 * (j 0).val)
    (hi1 : (i 1).val = 0 * 24576 + 1 * (j 1).val) : wide xb j = wide X i := by
  have hj1 : (j 1).val < 24576 := idx2_lt1 j
  obtain ⟨k, hk⟩ : ∃ k : Fin 6, k.val = (j 1).val / 4096 := ⟨⟨(j 1).val / 4096, by omega⟩, rfl⟩
  obtain ⟨cc, hcc⟩ : ∃ cc : Fin 4096, cc.val = (j 1).val % 4096 := ⟨⟨(j 1).val % 4096, Nat.mod_lt _ (by norm_num)⟩, rfl⟩
  have hsplit : (j 1).val = k.val * 4096 + cc.val := by omega
  have hr : (e0 (ix2 (j 0) cc) 0).val = q * 128 + 1 * (j 0).val := (he0 (ix2 (j 0) cc)).1
  have hc : (e0 (ix2 (j 0) cc) 1).val = 0 * 4096 + 1 * cc.val := (he0 (ix2 (j 0) cc)).2
  rw [wide_apply xb j k (j 0) cc rfl hsplit,
    wide_apply X i k (e0 (ix2 (j 0) cc) 0) cc (hi0.trans hr.symm)
      (by rw [hi1, Nat.zero_mul, Nat.zero_add, Nat.one_mul]; exact hsplit), hxb]
  refine congrArg (fun z => herm k (X z)) (funext fun a => ?_)
  match a with
  | ⟨0, _⟩ => rfl
  | ⟨1, _⟩ => exact Fin.ext (by show (e0 (ix2 (j 0) cc) 1).val = cc.val; omega)

variable (m : (ℓ : Loc nD τ sig) → Buf (Elt Ideal) ℓ) (ρ : Dev nD → PrngReg)

/-- The printed index maps over the sixteen points: the input's row block is the output's, and both have one column
    block. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every row block of the output is some point's. -/
theorem idx_onto : ∀ q : Fin 16, ∃ t : Fin cfg0.N, win0_1.index t = ![q.val, 0] :=
  (by decide +kernel : ∀ q : Fin 16, ∃ t : Fin grid0.N, win0_1.index t = ![q.val, 0])

/-- What point `t` writes back is block `t` of `wide` of the flattened input as the region finds it. -/
theorem flushed_eq (c : Dev nD) (t : Fin cfg0.N) :
    (dats m 0 c).flushed 1 t = ((cfg0.win 1).blk t).view.read (Elt Ideal) (wide (V m c main_v0)) := by
  show (cfg0.win 1).cut (grid0.coords t) ((dats m 0 c).after 1 t) = _
  rw [after0_1, block_eq]
  obtain ⟨e0, e1, e2⟩ := idx_facts t
  funext j
  show wide (iblk m c 0 t) j = wide (V m c main_v0) (((cfg0.win 1).blk t).view.emb j)
  refine wide_of_rows (V m c main_v0) (iblk m c 0 t) (fun z => ((cfg0.win 0).blk t).view.emb z) (fun z => rfl)
    (win0_1.index t (0 : Fin 2)) (fun z => ⟨?_, ?_⟩) j _ ?_ ?_
  · show win0_0.index t (0 : Fin 2) * 128 + 1 * (z 0).val = _
    rw [e0]
  · show win0_0.index t (1 : Fin 2) * 4096 + 1 * (z 1).val = _
    rw [e1]
  · show win0_1.index t (0 : Fin 2) * 128 + 1 * (j 0).val = _
    rfl
  · show win0_1.index t (1 : Fin 2) * 24576 + 1 * (j 1).val = _
    rw [e2]

/-- An index of the output array is in point `t`'s block iff each coordinate is in the block's range on its axis. -/
theorem mem_blk (t : Fin cfg0.N) (i : S2048x24576.Idx) :
    i ∈ ((cfg0.win 1).blk t).view.set ↔ ∀ a : Fin 2, win0_1.index t a * S128x24576.size a ≤ (i a).val
      ∧ (i a).val < win0_1.index t a * S128x24576.size a + S128x24576.size a := by
  show i ∈ ((View.whole main_v1).slice (win0_1.rect t)).set ↔ _
  rw [View.set_slice_whole, Rect.mem_set_unit]
  exact Iff.rfl

/-- Every index of the output array is in the block of the point its row names. -/
theorem covered (i : S2048x24576.Idx) :
    ∃ t : Fin cfg0.N, (cfg0.win 1).flush t = true ∧ i ∈ ((cfg0.win 1).blk t).view.set := by
  have hi0 : (i 0).val < 2048 := (i 0).isLt
  have hi1 : (i 1).val < 24576 := (i 1).isLt
  obtain ⟨t, ht⟩ := idx_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 24576 ≤ (i 1).val ∧ (i 1).val < win0_1.index t (1 : Fin 2) * 24576 + 24576
    omega

/-- The output array after the run: the six terms of every element of the flattened input, side by side. -/
theorem final (c : Dev nD) : (dats m 0 c).arrAt 1 cfg0.N = wide (V m c main_v0) :=
  (dats m 0 c).arrAt_eq_of_cover 1 (wide (V m c main_v0)) (fun t _ => flushed_eq m c t) covered

end Cert.KernelIdeal.Whole

end
-- ==== Proof.Relaid.lean ====
/-
  The two re-layings around the kernel's call, composed.

  The kernel's entry point flattens the input `[32, 64, 4096]` to `[2048, 4096]` (row `b · 64 + n`), computes the six terms
  side by side along the columns (`Hermite.wide`: a matrix `[2048, 6 · 4096]`), and re-lays that matrix as
  `[32, 64, 6, 4096]`. Both re-layings keep the row-major position, and
      ((b · 64 + n) · 6 + k) · 4096 + c  =  (b · 64 + n) · 24576 + (k · 4096 + c),
  so entry `(b, n, k, c)` of the result is term `k` of the input's element `(b, n, c)`: the function `Hermite.G`.
-/
import proofs.«133413_j41721312314117_2_alg».proof.Proof.Hermite
import Idealize.ShloMosaic.Lib.Pipeline.Value

noncomputable section

namespace Cert.Hermite

open Idealize.ShloMosaic Idealize.ShloMosaic.ValueIdx

theorem relaid (A : (⟨3, ![32, 64, 4096]⟩ : Shape).Idx → EReal)
    (h1 : (⟨3, ![32, 64, 4096]⟩ : Shape).ShapeCasts (⟨2, ![2048, 4096]⟩ : Shape))
    (h2 : (⟨2, ![2048, 24576]⟩ : Shape).ShapeCasts (⟨4, ![32, 64, 6, 4096]⟩ : Shape)) :
    shapeCast (⟨4, ![32, 64, 6, 4096]⟩ : Shape) (wide (shapeCast (⟨2, ![2048, 4096]⟩ : Shape) A h1)) h2 = G A := by
  funext j
  have b0 : (j 0).val < 32 := (j 0).isLt
  have b1 : (j 1).val < 64 := (j 1).isLt
  have b2 : (j 2).val < 6 := (j 2).isLt
  have b3 : (j 3).val < 4096 := (j 3).isLt
  -- the row and the column of the matrix that entry `j` comes from
  let r : Fin 2048 := ⟨(j 0).val * 64 + (j 1).val, by omega⟩
  let q : Fin 24576 := ⟨(j 2).val * 4096 + (j 3).val, by omega⟩
  rw [shapeCast_apply _ h2 j (ix2 r q) (by
    rw [Shape.rowMajor_val_two, Shape.rowMajor_val_four]
    show ((j 0).val * 64 + (j 1).val) * 24576 + ((j 2).val * 4096 + (j 3).val)
      = (((j 0).val * 64 + (j 1).val) * 6 + (j 2).val) * 4096 + (j 3).val
    ring)]
  rw [wide_apply _ (ix2 r q) (j 2) r (j 3) rfl rfl]
  rw [shapeCast_apply A h1 (ix2 r (j 3)) (ix3 (j 0) (j 1) (j 3)) (by
    rw [Shape.rowMajor_val_three, Shape.rowMajor_val_two]
    rfl)]
  rfl

end Cert.Hermite

end
-- ==== Proof.KernelRun.lean ====
/-
  The kernel program's run, with its result named.

  Around the call the program flattens the input (`[32, 64, 4096]` to `[2048, 4096]`) before, and re-lays the call's output
  (`[2048, 24576]` to `[32, 64, 6, 4096]`) after. The call's output array is `Hermite.wide` of the flattened input
  (`Whole.final`), so the program's result is the re-laid `wide` of the re-laid input, which `Hermite.relaid` identifies with
  `Hermite.G` of the input.
-/
import proofs.«133413_j41721312314117_2_alg».proof.Proof.KernelArray
import proofs.«133413_j41721312314117_2_alg».proof.Proof.Relaid
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Hermite
open Idealize.ShloMosaic.Pipeline (Dat)

variable (m : (ℓ : Loc nD τ sig) → Buf (Elt Ideal) ℓ) (ρ : Dev nD → PrngReg)

/-- The flattened input as the call finds it: the input re-laid, row-major position kept. -/
theorem entry_v0 (c : Dev nD) :
    (V m c main_v0 : S2048x4096.Idx → EReal)
      = shapeCast S2048x4096 (m ((c : Thread nD τ).loc main_arg0)) Facts₀.shapeCasts_S32x64x4096_S2048x4096 := by
  show StableHlo.after hostOps0 (fun b => m (c, b)) (Proc.devRef .tc main_v0) = _
  after_results
  rfl

/-- The program's result: the call's output array re-laid. -/
theorem tail_v2 (c : Dev nD) :
    (Pipeline.afterTail₀ cfgs (dats m) 0 (V0 m) [hostOps1] c main_v2 : S32x64x6x4096.Idx → EReal)
      = shapeCast S32x64x6x4096 (wide (V m c main_v0)) Facts₀.shapeCasts_S2048x24576_S32x64x6x4096 := by
  unfold Pipeline.afterTail₀
  show StableHlo.after hostOps1 _ (Proc.devRef .tc main_v2) = _
  after_results
  exact congrArg
    (fun X : S2048x24576.Idx → EReal => shapeCast S32x64x6x4096 X Facts₀.shapeCasts_S2048x24576_S32x64x6x4096)
    ((Pipeline.withArrays_arr spec0 launch0.win.arr_inj c (V0 m c) (fun w => (dats m 0 c).arrAt w cfg0.N) 1).trans
      (final m c))

/-- The program's result is `G` of its argument. -/
theorem result_eq (c : Dev nD) :
    (Pipeline.afterTail₀ cfgs (dats m) 0 (V0 m) [hostOps1] c main_v2 : S32x64x6x4096.Idx → EReal)
      = G (m ((c : Thread nD τ).loc main_arg0)) := by
  rw [tail_v2, entry_v0]
  exact relaid _ _ _

/-- Every weakly fair execution of the kernel program terminates with its result at `G` of the argument and the
    argument unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.RefStage.lean ====
/-
  The reference's intermediate arrays, read at one element.

  Every operation of the reference before the final stacking is pointwise over arrays of shape 32 × 64 × 4096 (a scalar
  constant broadcast to that shape reads the constant everywhere), so each stage at an index `i` is a function of the
  input's element `x i`: the scaled argument, the envelope and the six terms of the recurrence, in `Hermite`'s spelling
  word for word.
-/
import proofs.«133413_j41721312314117_2_alg».proof.Proof.Gen.ReferenceIdeal.Read
import proofs.«133413_j41721312314117_2_alg».proof.Proof.Hermite

noncomputable section

namespace Cert.ReferenceIdeal.Stage

open Cert.ReferenceIdeal Cert.ReferenceIdeal.Read Idealize.ShloMosaic Cert.Hermite

variable (x : (⟨S32x64x4096, .f32⟩ : BufTy).Contents (Elt Ideal)) (i : S32x64x4096.Idx)

theorem at_arg : val_main_v2 (F := Ideal) x i = arg (x i) := by
  rw [val_main_v2_apply, val_main_v0_apply, val_main_v1_apply, val_main_cst_apply]; rfl

theorem at_env : val_main_v7 (F := Ideal) x i = env (arg (x i)) := by
  rw [val_main_v7_apply, val_main_v6_apply, val_main_v4_apply, val_main_v3_apply, val_main_v5_apply,
    val_main_cst_0_apply, at_arg]; rfl

theorem at_psi0 : val_main_v9 (F := Ideal) x i = psi0 (arg (x i)) := by
  rw [val_main_v9_apply, val_main_v8_apply, val_main_cst_1_apply, at_env]; rfl

theorem at_psi1 : val_main_v12 (F := Ideal) x i = psi1 (arg (x i)) := by
  rw [val_main_v12_apply, val_main_v11_apply, val_main_v10_apply, val_main_cst_2_apply, at_arg, at_env]; rfl

theorem at_psi2 : val_main_v18 (F := Ideal) x i = psi2 (arg (x i)) := by
  rw [val_main_v18_apply, val_main_v15_apply, val_main_v14_apply, val_main_v13_apply, val_main_cst_3_apply,
    val_main_v17_apply, val_main_v16_apply, val_main_cst_4_apply, at_arg, at_psi1, at_psi0]; rfl

theorem at_psi3 : val_main_v24 (F := Ideal) x i = psi3 (arg (x i)) := by
  rw [val_main_v24_apply, val_main_v21_apply, val_main_v20_apply, val_main_v19_apply, val_main_cst_5_apply,
    val_main_v23_apply, val_main_v22_apply, val_main_cst_6_apply, at_arg, at_psi2, at_psi1]; rfl

theorem at_psi4 : val_main_v30 (F := Ideal) x i = psi4 (arg (x i)) := by
  rw [val_main_v30_apply, val_main_v27_apply, val_main_v26_apply, val_main_v25_apply, val_main_cst_7_apply,
    val_main_v29_apply, val_main_v28_apply, val_main_cst_8_apply, at_arg, at_psi3, at_psi2]; rfl

theorem at_psi5 : val_main_v36 (F := Ideal) x i = psi5 (arg (x i)) := by
  rw [val_main_v36_apply, val_main_v33_apply, val_main_v32_apply, val_main_v31_apply, val_main_cst_9_apply,
    val_main_v35_apply, val_main_v34_apply, val_main_cst_10_apply, at_arg, at_psi4, at_psi3]; rfl

end Cert.ReferenceIdeal.Stage

end
-- ==== Proof.RefValue.lean ====
/-
  The reference's result, index by index.

  The reference gives each of the six terms (arrays `[32, 64, 4096]`) a unit axis in third place and joins the six arrays
  `[32, 64, 1, 4096]` along that axis. Entry `(a, b, k, c)` of the join lies in piece `k` (the pieces before it have extent
  one each, `k` in all) at `(a, b, 0, c)`, and the unit axis reads term `k` at `(a, b, c)`: the function `Hermite.G`.
-/
import proofs.«133413_j41721312314117_2_alg».proof.Proof.RefStage
import Idealize.ShloMosaic.Lib.Pipeline.Value

noncomputable section

namespace Cert.ReferenceIdeal.Stage

open Cert.ReferenceIdeal Cert.ReferenceIdeal.Read Idealize.ShloMosaic Idealize.ShloMosaic.ValueIdx Cert.Hermite

/-- Off the joined axis, `(a, b, 0, c)` in a piece and `(a, b, k, c)` in the join have the same coordinates. -/
theorem off_axis {a : Fin 32} {b : Fin 64} {c : Fin 4096} (k : Fin 6) :
    ∀ d : Fin S32x64x1x4096.rank, d.cast (rfl : S32x64x1x4096.rank = S32x64x6x4096.rank) ≠ (2 : Fin 4) →
      ((ix4 a b (0 : Fin 1) c : S32x64x1x4096.Idx) d).val
        = ((ix4 a b k c : S32x64x6x4096.Idx) (d.cast (rfl : S32x64x1x4096.rank = S32x64x6x4096.rank))).val := by
  intro d hd
  match d with
  | ⟨0, _⟩ => rfl
  | ⟨1, _⟩ => rfl
  | ⟨2, _⟩ => exact absurd rfl hd
  | ⟨3, _⟩ => rfl

/-- The reference's result is `G` of its argument. -/
theorem result_eq (x : (⟨S32x64x4096, .f32⟩ : BufTy).Contents (Elt Ideal)) : val_main_v43 (F := Ideal) x = G x := by
  funext j
  obtain ⟨a, b, k, c, rfl⟩ : ∃ (a : Fin 32) (b : Fin 64) (k : Fin 6) (c : Fin 4096), j = ix4 a b k c :=
    ⟨j 0, j 1, j 2, j 3, eq_ix4 j⟩
  unfold val_main_v43
  match k with
  | ⟨0, _⟩ =>
    refine Eq.trans (concatenate_apply_piece (t := S32x64x6x4096) (2 : Fin 4) _ _ _ 0 ?_ S32x64x1x4096 (val_main_v37 (F := Ideal) x) ?_ rfl 0 ?_
      (ix4 a b (0 : Fin 1) c) ?_ ?_) ?_
    · exact (by decide : 0 < 6)
    · rfl
    · rfl
    · exact off_axis _
    · rfl
    · rw [val_main_v37_apply, at_psi0,
        show idx_main_v37 (ix4 a b (0 : Fin 1) c) = ix3 a b c from
          funext fun d => by match d with | ⟨0, _⟩ => rfl | ⟨1, _⟩ => rfl | ⟨2, _⟩ => rfl]
      rfl
  | ⟨1, _⟩ =>
    refine Eq.trans (concatenate_apply_piece (t := S32x64x6x4096) (2 : Fin 4) _ _ _ 1 ?_ S32x64x1x4096 (val_main_v38 (F := Ideal) x) ?_ rfl 1 ?_
      (ix4 a b (0 : Fin 1) c) ?_ ?_) ?_
    · exact (by decide : 1 < 6)
    · rfl
    · rfl
    · exact off_axis _
    · rfl
    · rw [val_main_v38_apply, at_psi1,
        show idx_main_v38 (ix4 a b (0 : Fin 1) c) = ix3 a b c from
          funext fun d => by match d with | ⟨0, _⟩ => rfl | ⟨1, _⟩ => rfl | ⟨2, _⟩ => rfl]
      rfl
  | ⟨2, _⟩ =>
    refine Eq.trans (concatenate_apply_piece (t := S32x64x6x4096) (2 : Fin 4) _ _ _ 2 ?_ S32x64x1x4096 (val_main_v39 (F := Ideal) x) ?_ rfl 2 ?_
      (ix4 a b (0 : Fin 1) c) ?_ ?_) ?_
    · exact (by decide : 2 < 6)
    · rfl
    · rfl
    · exact off_axis _
    · rfl
    · rw [val_main_v39_apply, at_psi2,
        show idx_main_v39 (ix4 a b (0 : Fin 1) c) = ix3 a b c from
          funext fun d => by match d with | ⟨0, _⟩ => rfl | ⟨1, _⟩ => rfl | ⟨2, _⟩ => rfl]
      rfl
  | ⟨3, _⟩ =>
    refine Eq.trans (concatenate_apply_piece (t := S32x64x6x4096) (2 : Fin 4) _ _ _ 3 ?_ S32x64x1x4096 (val_main_v40 (F := Ideal) x) ?_ rfl 3 ?_
      (ix4 a b (0 : Fin 1) c) ?_ ?_) ?_
    · exact (by decide : 3 < 6)
    · rfl
    · rfl
    · exact off_axis _
    · rfl
    · rw [val_main_v40_apply, at_psi3,
        show idx_main_v40 (ix4 a b (0 : Fin 1) c) = ix3 a b c from
          funext fun d => by match d with | ⟨0, _⟩ => rfl | ⟨1, _⟩ => rfl | ⟨2, _⟩ => rfl]
      rfl
  | ⟨4, _⟩ =>
    refine Eq.trans (concatenate_apply_piece (t := S32x64x6x4096) (2 : Fin 4) _ _ _ 4 ?_ S32x64x1x4096 (val_main_v41 (F := Ideal) x) ?_ rfl 4 ?_
      (ix4 a b (0 : Fin 1) c) ?_ ?_) ?_
    · exact (by decide : 4 < 6)
    · rfl
    · rfl
    · exact off_axis _
    · rfl
    · rw [val_main_v41_apply, at_psi4,
        show idx_main_v41 (ix4 a b (0 : Fin 1) c) = ix3 a b c from
          funext fun d => by match d with | ⟨0, _⟩ => rfl | ⟨1, _⟩ => rfl | ⟨2, _⟩ => rfl]
      rfl
  | ⟨5, _⟩ =>
    refine Eq.trans (concatenate_apply_piece (t := S32x64x6x4096) (2 : Fin 4) _ _ _ 5 ?_ S32x64x1x4096 (val_main_v42 (F := Ideal) x) ?_ rfl 5 ?_
      (ix4 a b (0 : Fin 1) c) ?_ ?_) ?_
    · exact (by decide : 5 < 6)
    · rfl
    · rfl
    · exact off_axis _
    · rfl
    · rw [val_main_v42_apply, at_psi5,
        show idx_main_v42 (ix4 a b (0 : Fin 1) c) = ix3 a b c from
          funext fun d => by match d with | ⟨0, _⟩ => rfl | ⟨1, _⟩ => rfl | ⟨2, _⟩ => rfl]
      rfl

end Cert.ReferenceIdeal.Stage

end
-- ==== Proof.lean ====
/-
  Both programs compute, element by element, six terms of a three-term recurrence in `u = tanh x · s` under the
  envelope `exp (-(u · u) / 2)` (`Hermite.herm`), and lay them out as `[32, 64, 6, 4096]`: entry `(b, n, k, c)` of the
  result is term `k` of the input's element `(b, n, c)` (`Hermite.G`).

  The kernel program flattens the input to `[2048, 4096]`; a grid of sixteen points each takes 128 rows and stores
  the six terms side by side along the columns of a `[2048, 24576]` array; that array is re-laid as `[32, 64, 6, 4096]`.
  The reference computes the six terms as whole arrays, gives each a unit axis and joins them. The float constants
  are the same words in both texts and are never evaluated. The one difference in the arithmetic is how the envelope's
  exponent is halved — `(0 - u) · u · 0.5` against `(-u · u) / 2` — and these agree on every extended real, so the
  claim needs nothing of the precondition.
-/
import proofs.«133413_j41721312314117_2_alg».proof.Defs
import proofs.«133413_j41721312314117_2_alg».proof.Proof.Gen.Kernel
import proofs.«133413_j41721312314117_2_alg».proof.Proof.Gen.Kernel.Frame
import proofs.«133413_j41721312314117_2_alg».proof.Proof.Gen.KernelIdeal
import proofs.«133413_j41721312314117_2_alg».proof.Proof.Gen.KernelIdeal.Frame
import proofs.«133413_j41721312314117_2_alg».proof.Proof.Gen.ReferenceIdeal
import proofs.«133413_j41721312314117_2_alg».proof.Proof.Gen.ReferenceIdeal.Read
import proofs.«133413_j41721312314117_2_alg».proof.Proof.Gen.Pre_finite_inputs
import proofs.«133413_j41721312314117_2_alg».proof.Proof.KernelRun
import proofs.«133413_j41721312314117_2_alg».proof.Proof.RefValue
import Idealize.ShloMosaic.Adequacy
import Idealize.ShloMosaic.Init

noncomputable section

namespace Cert.Proof

open Idealize.ShloMosaic Idealize.SL.Sem

/-- The word-level kernel program terminates without a fault and leaves its argument unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of array operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the argument, both programs end with `G` of the argument. -/
theorem algebraic : Cert.algebraic_KernelIdeal_ReferenceIdeal := by
  intro m ρ m' ρ' _ hagree
  refine ⟨fun c => Cert.Hermite.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, Cert.ReferenceIdeal.Stage.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
